-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x32x512x512 : Shape := ⟨5, ![4, 8, 32, 512, 512]⟩
abbrev S_ : Shape := ⟨0, ![]⟩

class Facts : Prop where
  bcast_S_S4x8x32x512x512 : S_.BroadcastsInDim S4x8x32x512x512 (![] : Fin 0 → Fin S4x8x32x512x512.rank)
  reducesTo_S4x8x32x512x512_S_d0_1_2_3_4 : S4x8x32x512x512.ReducesTo [0, 1, 2, 3, 4] S_
  h_S_ : 0 < S_.numel

variable [Facts]

def fn {F : FTy → Type} [FloatOps F] (main_arg0 : FVec F S4x8x32x512x512 .f32) : IVec S_ 1 :=
  let main_v0 : FVec F S4x8x32x512x512 .f32 := Host.absf main_arg0
  let main_cst : FVec F S_ .f32 := constant S_ .f32 0x7F800000#32
  let main_v1 : FVec F S4x8x32x512x512 .f32 := broadcastInDim S4x8x32x512x512 ![] bcast_S_S4x8x32x512x512 main_cst
  let main_v2 : IVec S4x8x32x512x512 1 := cmpf .olt main_v0 main_v1
  let main_c : IVec S_ 1 := constantI S_ 1 1#1
  let main_v3 : IVec S_ 1 := (fun x v => Host.reduce IntOp.andi x v reducesTo_S4x8x32x512x512_S_d0_1_2_3_4 h_S_) main_v2 main_c
  main_v3
-- ==== Kernel.lean ====
abbrev S4x8x32x512x512 : Shape := ⟨5, ![4, 8, 32, 512, 512]⟩
abbrev S4x1x512x512 : Shape := ⟨4, ![4, 1, 512, 512]⟩
abbrev S1x1x32x256x512 : Shape := ⟨5, ![1, 1, 32, 256, 512]⟩
abbrev S1x1x256x512 : Shape := ⟨4, ![1, 1, 256, 512]⟩
abbrev S1x1x1x256x512 : Shape := ⟨5, ![1, 1, 1, 256, 512]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x8x32x512x512, .f32⟩
  | .hbm, ⟨1, _⟩ => ⟨S4x1x512x512, .f32⟩
  | .local _ .vmem, ⟨0, _⟩ => ⟨S1x1x32x256x512, .f32⟩
  | .local _ .vmem, ⟨1, _⟩ => ⟨S1x1x32x256x512, .f32⟩
  | .local _ .vmem, ⟨2, _⟩ => ⟨S1x1x256x512, .f32⟩
  | .local _ .vmem, ⟨3, _⟩ => ⟨S1x1x256x512, .f32⟩
  | _, _ => ⟨S4x8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c1_i32 : BitVec 32 := 1#32
  let c31_i32 : BitVec 32 := 31#32
  let v2 : BitVec 32 := Scalar.addi c1_i32 c31_i32
  let c1_i32_4 : BitVec 32 := 1#32
  ⟨c1_i32, v2, c1_i32_4⟩
def k0_off1 (k0_t1 : Fin k0_t1_loop.trips) : Fin 5 → Nat :=
  let c0_10 : Index := 0#32
  let c0_11 : Index := 0#32
  let c1_i32 : BitVec 32 := 1#32
  let c1_i32_4 : BitVec 32 := 1#32
  let arg4 : BitVec 32 := Scf.iv c1_i32 c1_i32_4 k0_t1
  let v7 : Index := Scalar.indexCast arg4
  let c0_12 : Index := 0#32
  let c0_13 : Index := 0#32
  ![0, 0, v7.toNat, 0, 0]
def cc0_transform_0 (i : grid0.Coords) : Fin 5 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x32x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x32x256x512_S1x1x1x256x512_0_0_0_0_0 : ∀ a, (![0, 0, 0, 0, 0] : Fin 5 → Nat) a + S1x1x1x256x512.size a ≤ S1x1x32x256x512.size a
  h_S1x1x1x256x512 : 0 < S1x1x1x256x512.numel
  shapeCasts_S1x1x1x256x512_S256x512 : S1x1x1x256x512.ShapeCasts S256x512
  inb_S1x1x256x512_S1x1x256x512_0_0_0_0 : ∀ a, (![0, 0, 0, 0] : Fin 4 → Nat) a + S1x1x256x512.size a ≤ S1x1x256x512.size a
  h_S1x1x256x512 : 0 < S1x1x256x512.numel
  shapeCasts_S1x1x256x512_S256x512 : S1x1x256x512.ShapeCasts S256x512
  shapeCasts_S256x512_S1x1x256x512 : S256x512.ShapeCasts S1x1x256x512
  hrank0 : 0 < grid0.rank
  k0_t1_ok : k0_t1_loop.OK
  k0_off1_inb : ∀ k0_t1 : Fin k0_t1_loop.trips, ∀ a, (k0_off1 k0_t1) a + S1x1x1x256x512.size a ≤ S1x1x32x256x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x256x512.size a ≤ S4x8x32x512x512.size a
  hwx0_0 : ∀ i : grid0.Coords, EltTy.bits .f32 = 32 ∨ (Rect.block (s := S4x8x32x512x512) S1x1x32x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x512.size a ≤ S4x1x512x512.size a
  hwx0_1 : ∀ i : grid0.Coords, EltTy.bits .f32 = 32 ∨ (Rect.block (s := S4x1x512x512) S1x1x256x512.size (cc0_transform_1 i) (hinb0_1 i)).WholeWords (EltTy.packing .f32)

variable [Facts₀]

abbrev win0_0 : Pipeline.Window sig grid0 :=
  Pipeline.Window.ofSpec (Memref.whole main_arg0) S1x1x32x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8x32x512x512 : Shape := ⟨5, ![4, 8, 32, 512, 512]⟩
abbrev S4x1x32x512x512 : Shape := ⟨5, ![4, 1, 32, 512, 512]⟩
abbrev S4x32x512x512 : Shape := ⟨4, ![4, 32, 512, 512]⟩
abbrev S_ : Shape := ⟨0, ![]⟩
abbrev S4x512x512 : Shape := ⟨3, ![4, 512, 512]⟩
abbrev S4x1x512x512 : Shape := ⟨4, ![4, 1, 512, 512]⟩

abbrev nBuf : Space → Nat
  | .hbm => 6
  | .vmem => 0
  | .smem => 0
  | _ => 0

abbrev bufTy : (tb : Table) → Fin (tcTables nBuf tb) → BufTy
  | .hbm, ⟨0, _⟩ => ⟨S4x8x32x512x512, .f32⟩
  | .hbm, ⟨1, _⟩ => ⟨S4x1x32x512x512, .f32⟩
  | .hbm, ⟨2, _⟩ => ⟨S4x32x512x512, .f32⟩
  | .hbm, ⟨3, _⟩ => ⟨S_, .f32⟩
  | .hbm, ⟨4, _⟩ => ⟨S4x512x512, .f32⟩
  | .hbm, ⟨5, _⟩ => ⟨S4x1x512x512, .f32⟩
  | _, _ => ⟨S4x8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  slices_S4x8x32x512x512_S4x1x32x512x512_0_7_0_0_0 : S4x8x32x512x512.Slices ![0, 7, 0, 0, 0] S4x1x32x512x512
  shapeCasts_S4x1x32x512x512_S4x32x512x512 : S4x1x32x512x512.ShapeCasts S4x32x512x512
  reducesTo_S4x32x512x512_S4x512x512_d1 : S4x32x512x512.ReducesTo [1] S4x512x512
  h_S_ : 0 < S_.numel
  bcast_S4x512x512_S4x1x512x512_0_2_3 : S4x512x512.BroadcastsInDim S4x1x512x512 (![0, 2, 3] : Fin 3 → Fin S4x1x512x512.rank)

variable [Facts₀]

class Facts : Prop extends Facts₀ where

variable [Facts]
-- ==== Proof.LibRunMin.lean ====
/-
  A running minimum and the fold of `min` (and, mirrored, a running maximum and the fold of `max`).

  The kernel takes the minimum of a pixel's 32 channel values one channel at a time, left to right, starting from
  channel 0: `(((x₀ ⊓ x₁) ⊓ x₂) ⊓ …) ⊓ x₃₁`. The reference folds `min` over the same 32 values starting from the
  top element `+∞`. In a linear order the two are the same element: both are the greatest lower bound of the values,
  and a greatest lower bound is determined by which elements lie below it. `le_runMin_iff` says that `z` lies
  below the running minimum through term `k` exactly when it lies below each of the terms `0, …, k`; Mathlib's
  `Finset.le_fold_min` says the same of the fold, together with `z ≤ b` for the starting element `b`, which holds of
  every `z` when `b` is a top element. No finiteness is needed anywhere: `min` on the extended reals is total, and
  `+∞` and `-∞` are ordinary elements of the order. The statements are over any linear order, any number of terms and
  any starting element that is a top (for `min`) or a bottom (for `max`); the second half is the first with the order
  reversed.
-/
import Mathlib.Data.Finset.Fold
import Mathlib.Order.Fin.Basic
import Mathlib.Data.Fintype.Fin

namespace Cert.LibRunMin

variable {α : Type*} [LinearOrder α]

/-- The running minimum of the terms `f 0, …, f k`, taken left to right. -/
def runMin (f : ℕ → α) : ℕ → α
  | 0 => f 0
  | k + 1 => min (runMin f k) (f (k + 1))

theorem runMin_zero (f : ℕ → α) : runMin f 0 = f 0 := rfl

theorem runMin_succ (f : ℕ → α) (k : ℕ) : runMin f (k + 1) = min (runMin f k) (f (k + 1)) := rfl

/-- An element lies below the running minimum through term `k` exactly when it lies below each of the terms
    `0, …, k`. -/
theorem le_runMin_iff (f : ℕ → α) (z : α) : ∀ k : ℕ, z ≤ runMin f k ↔ ∀ c, c ≤ k → z ≤ f c
  | 0 => by
    rw [runMin_zero]
    exact ⟨fun h c hc => by rw [Nat.le_zero.mp hc]; exact h, fun h => h 0 le_rfl⟩
  | k + 1 => by
    rw [runMin_succ, le_min_iff, le_runMin_iff f z k]
    constructor
    · rintro ⟨h1, h2⟩ c hc
      rcases Nat.lt_or_ge c (k + 1) with h | h
      · exact h1 c (Nat.lt_succ_iff.mp h)
      · rw [le_antisymm hc h]; exact h2
    · intro h
      exact ⟨fun c hc => h c (Nat.le_succ_of_le hc), h (k + 1) le_rfl⟩

/-- The running minimum through the last of `n + 1` terms is the fold of `min` over all of them from any element
    `b` that every element lies below (a top element): both are the greatest lower bound of the terms. -/
theorem runMin_eq_fold (n : ℕ) (g : Fin (n + 1) → α) (f : ℕ → α) (hfg : ∀ c : Fin (n + 1), f c.val = g c)
    (b : α) (hb : ∀ z : α, z ≤ b) :
    runMin f n = Finset.univ.fold min b g := by
  apply le_antisymm
  · rw [Finset.le_fold_min]
    refine ⟨hb _, fun c _ => ?_⟩
    rw [← hfg c]
    exact (le_runMin_iff f _ n).mp le_rfl c.val (Nat.lt_succ_iff.mp c.isLt)
  · rw [le_runMin_iff]
    intro c hc
    have h := ((Finset.le_fold_min (s := (Finset.univ : Finset (Fin (n + 1)))) (f := g) (b := b)
      (c := Finset.univ.fold min b g)).mp le_rfl).2 ⟨c, Nat.lt_succ_iff.mpr hc⟩ (Finset.mem_univ _)
    rw [← hfg] at h
    exact h

/-! ## The mirrored statements for a running maximum -/

/-- The running maximum of the terms `f 0, …, f k`, taken left to right. -/
def runMax (f : ℕ → α) : ℕ → α
  | 0 => f 0
  | k + 1 => max (runMax f k) (f (k + 1))

theorem runMax_zero (f : ℕ → α) : runMax f 0 = f 0 := rfl

theorem runMax_succ (f : ℕ → α) (k : ℕ) : runMax f (k + 1) = max (runMax f k) (f (k + 1)) := rfl

/-- The running maximum through term `k` lies below an element exactly when each of the terms `0, …, k` does. -/
theorem runMax_le_iff (f : ℕ → α) (z : α) : ∀ k : ℕ, runMax f k ≤ z ↔ ∀ c, c ≤ k → f c ≤ z
  | 0 => by
    rw [runMax_zero]
    exact ⟨fun h c hc => by rw [Nat.le_zero.mp hc]; exact h, fun h => h 0 le_rfl⟩
  | k + 1 => by
    rw [runMax_succ, max_le_iff, runMax_le_iff f z k]
    constructor
    · rintro ⟨h1, h2⟩ c hc
      rcases Nat.lt_or_ge c (k + 1) with h | h
      · exact h1 c (Nat.lt_succ_iff.mp h)
      · rw [le_antisymm hc h]; exact h2
    · intro h
      exact ⟨fun c hc => h c (Nat.le_succ_of_le hc), h (k + 1) le_rfl⟩

/-- The running maximum through the last of `n + 1` terms is the fold of `max` over all of them from any element
    `b` that lies below every element (a bottom element): both are the least upper bound of the terms. -/
theorem runMax_eq_fold (n : ℕ) (g : Fin (n + 1) → α) (f : ℕ → α) (hfg : ∀ c : Fin (n + 1), f c.val = g c)
    (b : α) (hb : ∀ z : α, b ≤ z) :
    runMax f n = Finset.univ.fold max b g := by
  apply le_antisymm
  · rw [runMax_le_iff]
    intro c hc
    have h := ((Finset.fold_max_le (s := (Finset.univ : Finset (Fin (n + 1)))) (f := g) (b := b)
      (c := Finset.univ.fold max b g)).mp le_rfl).2 ⟨c, Nat.lt_succ_iff.mpr hc⟩ (Finset.mem_univ _)
    rw [← hfg] at h
    exact h
  · rw [Finset.fold_max_le]
    refine ⟨hb _, fun c _ => ?_⟩
    rw [← hfg c]
    exact (runMax_le_iff f _ n).mp le_rfl c.val (Nat.lt_succ_iff.mp c.isLt)

end Cert.LibRunMin
-- ==== Proof.BlockMin.lean ====
/-
  What the kernel body leaves in one output block.

  At a grid point the body holds one block `x` of the input, of shape [1, 1, 32, 256, 512]: all 32 channels of a
  256-row tile of one batch element's last time step. It loads channel 0 as a [256, 512] plane, then for
  `k = 0, …, 30` loads channel `k + 1` and replaces the carried plane by the pointwise minimum of the two, and
  finally stores the carried plane as the [1, 1, 256, 512] output block. So at pixel `(r, w)` of the tile the
  carried value before trip `k` is the running minimum `((x₀ ⊓ x₁) ⊓ …) ⊓ x_k` of that pixel's channel values
  (`carried_apply`, by induction on the trip, one trip being `min` with the next channel: `trip_yield`), and the
  stored block holds, at `(0, 0, r, w)`, the running minimum through channel 31 — which is the fold of `min` from
  `+∞` over the 32 channel values (`block_min`, by `runMin_eq_fold`).

  The layout steps read at an index: a [1,1,1,256,512] plane viewed as [256,512] and a [256,512] plane stored as a
  [1,1,256,512] block keep the row-major position (`plane_apply`, `block_apply`); a load through the unit-stride
  rectangle at offsets `(0, 0, ch, 0, 0)` reads channel `ch` (`load_channel`).
-/
import proofs.«108669_j32667521253559_2_alg».proof.Proof.Gen.KernelIdeal.Frame
import proofs.«108669_j32667521253559_2_alg».proof.Proof.LibRunMin
import Idealize.ShloMosaic.Lib.Pipeline.Value
import Idealize.ShloMosaic.Lib.ValueIdx
import Idealize.ShloMosaic.PureOps.Ideal

noncomputable section

open Idealize.ShloMosaic Idealize.ShloMosaic.TcCoe Idealize.SL.Sem Idealize.ShloMosaic.ValueIdx

namespace Cert.MinChannel.Block

open Cert.KernelIdeal Cert.KernelIdeal.Gen Cert.LibRunMin

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-! ## Layout steps read at an index -/

/-- A [1,1,1,256,512] plane viewed as [256,512]: entry `(r, w)` is entry `(0,0,0,r,w)`. -/
theorem plane_apply {α : Type} (v : S1x1x1x256x512.Idx → α) (h : S1x1x1x256x512.ShapeCasts S256x512)
    (r : Fin 256) (w : Fin 512) :
    shapeCast S256x512 v h (ix2 r w) = v (ix5 (0 : Fin 1) (0 : Fin 1) (0 : Fin 1) r w) :=
  shapeCast_apply v h (ix2 r w) (ix5 (0 : Fin 1) (0 : Fin 1) (0 : Fin 1) r w) (by
    rewrite [Shape.rowMajor_val_five, Shape.rowMajor_val_two]
    show ((((0 : ℕ) * 1 + 0) * 1 + 0) * 256 + r.val) * 512 + w.val = r.val * 512 + w.val
    omega)

/-- A [256,512] plane stored as a [1,1,256,512] block: entry `(0,0,r,w)` is entry `(r, w)`. -/
theorem block_apply {α : Type} (v : S256x512.Idx → α) (h : S256x512.ShapeCasts S1x1x256x512)
    (r : Fin 256) (w : Fin 512) :
    shapeCast S1x1x256x512 v h (ix4 (0 : Fin 1) (0 : Fin 1) r w) = v (ix2 r w) :=
  shapeCast_apply v h (ix4 (0 : Fin 1) (0 : Fin 1) r w) (ix2 r w) (by
    rewrite [Shape.rowMajor_val_two, Shape.rowMajor_val_four]
    show r.val * 512 + w.val = (((0 : ℕ) * 1 + 0) * 256 + r.val) * 512 + w.val
    omega)

/-- A load of one [1,1,1,256,512] plane through the unit-stride rectangle at offsets `(0, 0, ch, 0, 0)` of a
    [1,1,32,256,512] block reads channel `ch`. -/
theorem load_channel {Val : EltTy → Type} (x : S1x1x32x256x512.Idx → Val .f32) (off : Fin 5 → ℕ)
    (inb : ∀ a, off a + S1x1x1x256x512.size a ≤ S1x1x32x256x512.size a)
    (ch : Fin 32) (hoff : off = ![0, 0, ch.val, 0, 0]) (r : Fin 256) (w : Fin 512) :
    View.ld (Val := Val) x (Rect.unit (s := S1x1x32x256x512) off S1x1x1x256x512.size inb)
        (ix5 (0 : Fin 1) (0 : Fin 1) (0 : Fin 1) r w)
      = x (ix5 (0 : Fin 1) (0 : Fin 1) ch r w) := by
  subst hoff
  show x _ = x _
  congr 1
  funext a
  apply Fin.ext
  match a with
  | ⟨0, _⟩ => show 0 + 1 * 0 = 0; rfl
  | ⟨1, _⟩ => show 0 + 1 * 0 = 0; rfl
  | ⟨2, _⟩ => show ch.val + 1 * 0 = ch.val; omega
  | ⟨3, _⟩ => show 0 + 1 * r.val = r.val; omega
  | ⟨4, _⟩ => show 0 + 1 * w.val = w.val; omega

/-! ## One trip, and the carried plane -/

/-- One trip of the loop yields the pointwise minimum of the carried plane and the plane loaded at the trip's
    offsets (channel `k + 1`): the trip's result, which the run left as its own find, opened. -/
theorem trip_yield {F : FTy → Type} [FloatOps F] (𝒱 : Variants) (c : Dev nD) (bd : Option 𝒱.V) (i : grid0.Coords)
    (a2 : Memref sig .tc .vmem S1x1x32x256x512 .f32) (h2 : a2.IsWhole)
    (a3 : Memref sig .tc .vmem S1x1x256x512 .f32) (h3 : a3.IsWhole)
    (X : BufTy.Contents (Elt F) a2.view.ty) (k : Fin k0_t1_loop.trips) (acc : FVec F S256x512 .f32) :
    tripR_k0_t1 (F := F) 𝒱 c bd i a2 h2 a3 h3 X k acc
      = k0_pay2 acc (View.readAt (Elt F) a2.view
          (Rect.unit (s := S1x1x32x256x512) (k0_off1 k) S1x1x1x256x512.size (k0_off1_inb k)).toLoadRect X) := by
  unfold tripR_k0_t1 trip_k0_t1
  rfl

/-- The loop makes 31 trips (channels 1 to 31). -/
theorem trips_eq : k0_t1_loop.trips = 31 := by decide +kernel

/-- The channel values of pixel `(r, w)` of a block, as a sequence (past channel 31 it is `+∞`, never read). -/
def chan (x : Vec Ideal S1x1x32x256x512 .f32) (r : Fin 256) (w : Fin 512) : ℕ → EReal :=
  fun ch => if h : ch < 32 then x (ix5 (0 : Fin 1) (0 : Fin 1) (⟨ch, h⟩ : Fin 32) r w) else ⊤

/-- Before trip `k` the carried plane holds at pixel `(r, w)` the running minimum of the pixel's channels `0, …, k`,
    when it started from channel 0: by induction on the trip, each trip taking `min` with channel `k + 1`. -/
theorem carried_apply (𝒱 : Variants) (c : Dev nD) (bd : Option 𝒱.V) (i : grid0.Coords)
    (a2 : Memref sig .tc .vmem S1x1x32x256x512 .f32) (h2 : a2.IsWhole)
    (a3 : Memref sig .tc .vmem S1x1x256x512 .f32) (h3 : a3.IsWhole)
    (x : Vec Ideal S1x1x32x256x512 .f32) (r : Fin 256) (w : Fin 512)
    (init : FVec Ideal S256x512 .f32)
    (hinit : init (ix2 r w) = x (ix5 (0 : Fin 1) (0 : Fin 1) (0 : Fin 32) r w)) :
    ∀ k : ℕ, k ≤ 31 →
      st_k0_t1 (F := Ideal) 𝒱 c bd i a2 h2 a3 h3 (h2.unread x) init k (ix2 r w) = runMin (chan x r w) k
  | 0, _ => by
    rw [st_k0_t1_zero, runMin_zero, hinit]
    unfold chan
    rw [dif_pos (by decide : 0 < 32)]
    rfl
  | k + 1, hk => by
    have hk' : k < k0_t1_loop.trips := by rw [trips_eq]; omega
    have e := st_k0_t1_succ (F := Ideal) 𝒱 c bd i a2 h2 a3 h3 (h2.unread x) init ⟨k, hk'⟩
    refine (congrFun e (ix2 r w)).trans ?_
    rw [trip_yield, runMin_succ]
    unfold k0_pay2
    dsimp only
    rw [minimumf_apply, carried_apply 𝒱 c bd i a2 h2 a3 h3 x r w init hinit k (by omega), plane_apply]
    simp only [View.readAt_eq_ld, h2.read_unread]
    rw [load_channel x _ _ (⟨k + 1, by omega⟩ : Fin 32) (k0_off1_eq ⟨k, hk'⟩) r w]
    unfold chan
    rw [dif_pos (by omega : k + 1 < 32)]

/-! ## The stored block -/

/-- THE BLOCK the body leaves: at `(0, 0, r, w)` the minimum of pixel `(r, w)`'s 32 channel values, as the fold of
    `min` from `+∞`. The run found one store covering the block, of the carried plane after the last trip. -/
theorem block_min (c : Dev nD) (i : grid0.Coords)
    (a2 : Memref sig .tc .vmem S1x1x32x256x512 .f32) (h2 : a2.IsWhole)
    (a3 : Memref sig .tc .vmem S1x1x256x512 .f32) (h3 : a3.IsWhole)
    (x : Vec Ideal S1x1x32x256x512 .f32) (r : Fin 256) (w : Fin 512) :
    out0_A_1 (F := Ideal) c i a2 h2 a3 h3 x (ix4 (0 : Fin 1) (0 : Fin 1) r w)
      = Finset.univ.fold min (⊤ : EReal) (fun ch : Fin 32 => x (ix5 (0 : Fin 1) (0 : Fin 1) ch r w)) := by
  have ht : Scf.trips (1#32) (Scalar.addi 1#32 31#32) 1#32 = 31 := by decide +kernel
  unfold out0_A_1
  rw [View.read_writes_eq_canon _ _ _ (cover0_A_1 c i a2 h2 a3 h3 x)]
  unfold kernelRun0_A
  dsimp only
  rw [View.canon_unit_zero hz4]
  unfold k0_pay3
  rw [block_apply, ht]
  rw [carried_apply Variants.none c none i a2 h2 a3 h3 x r w _ ?_ 31 le_rfl]
  · exact runMin_eq_fold 31 _ (chan x r w) (fun ch => by unfold chan; rw [dif_pos ch.isLt]) ⊤ (fun _ => le_top)
  · unfold k0_pay1
    rw [plane_apply]
    simp only [View.readAt_eq_ld, h2.read_unread]
    exact load_channel x _ _ (0 : Fin 32) rfl r w

/-- The same at any index `j` of the block: its two leading coordinates range over one value, so `j` is
    `(0, 0, j 2, j 3)`. -/
theorem block_min_at (c : Dev nD) (i : grid0.Coords)
    (a2 : Memref sig .tc .vmem S1x1x32x256x512 .f32) (h2 : a2.IsWhole)
    (a3 : Memref sig .tc .vmem S1x1x256x512 .f32) (h3 : a3.IsWhole)
    (x : Vec Ideal S1x1x32x256x512 .f32) (j : S1x1x256x512.Idx) :
    out0_A_1 (F := Ideal) c i a2 h2 a3 h3 x j
      = Finset.univ.fold min (⊤ : EReal) (fun ch : Fin 32 => x (ix5 (0 : Fin 1) (0 : Fin 1) ch (j 2) (j 3))) := by
  have hj : j = ix4 (0 : Fin 1) (0 : Fin 1) (j 2) (j 3) := by
    funext a
    apply Fin.ext
    match a with
    | ⟨0, _⟩ => show (j 0).val = 0; have h : (j 0).val < 1 := (j 0).isLt; omega
    | ⟨1, _⟩ => show (j 1).val = 0; have h : (j 1).val < 1 := (j 1).isLt; omega
    | ⟨2, _⟩ => rfl
    | ⟨3, _⟩ => rfl
  exact (congrArg (out0_A_1 (F := Ideal) c i a2 h2 a3 h3 x) hj).trans (block_min c i a2 h2 a3 h3 x (j 2) (j 3))

end Cert.MinChannel.Block

end
-- ==== Proof.Spec.lean ====
/-
  The specification: the channel minimum of the last time step.

  For an input array `X` of shape [4, 8, 32, 512, 512] (batch, time, channel, row, column) the result array of
  shape [4, 1, 512, 512] holds at `(b, 0, h, w)` the minimum over the 32 channels `c` of `X (b, 7, c, h, w)` — time
  step 7 is the last of the eight —, written as the fold of `min` from `+∞` over the channels. Both programs are
  shown to end with this one function of the argument array; it is stated over the literal shapes and imports
  neither program.
-/
import Idealize.ShloMosaic.PureOps.Ideal
import Idealize.ShloMosaic.Lib.ValueIdx

noncomputable section

open Idealize.ShloMosaic Idealize.ShloMosaic.ValueIdx

namespace Cert.MinChannel

/-- The minimum over the 32 channels of the last time step, pixel by pixel. -/
def chanMin (X : (⟨5, ![4, 8, 32, 512, 512]⟩ : Shape).Idx → EReal) : (⟨4, ![4, 1, 512, 512]⟩ : Shape).Idx → EReal :=
  fun i => Finset.univ.fold min (⊤ : EReal) (fun ch : Fin 32 => X (ix5 (i 0) (7 : Fin 8) ch (i 2) (i 3)))

end Cert.MinChannel

end
-- ==== Proof.KernelArray.lean ====
/-
  From the kernel's blocks to its result array.

  The grid has 4 × 2 points `(b, h)`. At point `(b, h)` the input window holds the block of the argument at block
  indices `(b, 7, 0, h, 0)` — batch element `b`, the last time step, all 32 channels, rows `256 h … 256 h + 255`,
  all columns — and the output window writes back the block of the result at block indices `(b, 0, h, 0)`: the same
  batch element and the same rows. So pixel `(r, w)` of the block the body leaves (`Block.block_min_at`: the minimum
  over the channels of the input block at `(0, 0, c, r, w)`) is the channel minimum of the argument at
  `(b, 7, c, 256 h + r, w)`, which is `chanMin` of the argument read through the output's block (`flushed_eq`). The 8
  output blocks tile the [4, 1, 512, 512] array — row `i 2` of batch element `i 0` lies in the block of point
  `(i 0, i 2 / 256)` (`cover`) — so after the run the whole result array is `chanMin` of the argument (`final`),
  and the kernel's run ends with the result at `chanMin` of the launch contents and the argument unchanged (`run`).
-/
import proofs.«108669_j32667521253559_2_alg».proof.Proof.Gen.KernelIdeal.Value
import proofs.«108669_j32667521253559_2_alg».proof.Proof.BlockMin
import proofs.«108669_j32667521253559_2_alg».proof.Proof.Spec

noncomputable section

open Idealize.ShloMosaic Idealize.ShloMosaic.TcCoe Idealize.SL.Sem Idealize.ShloMosaic.ValueIdx
open Idealize.ShloMosaic.Pipeline (Dat)

namespace Cert.MinChannel.KernelArray

open Cert.KernelIdeal Cert.KernelIdeal.Gen Cert.KernelIdeal.Value

variable (m : (ℓ : Loc nD τ sig) → Buf (Elt Ideal) ℓ) (ρ : Dev nD → PrngReg)

/-- The two windows' block indices at every grid point, decided over the 8 points: the input block sits at the
    output block's batch element and row tile, at time step 7, channel block 0 and column block 0. -/
theorem idx_facts : ∀ t : Fin cfg0.N,
    win0_0.index t (0 : Fin 5) = win0_1.index t (0 : Fin 4)
    ∧ win0_0.index t (1 : Fin 5) = 7
    ∧ win0_0.index t (2 : Fin 5) = 0
    ∧ win0_0.index t (3 : Fin 5) = win0_1.index t (2 : Fin 4)
    ∧ win0_0.index t (4 : Fin 5) = 0
    ∧ win0_1.index t (1 : Fin 4) = 0
    ∧ win0_1.index t (3 : Fin 4) = 0
    ∧ win0_1.index t (0 : Fin 4) ≤ 3
    ∧ win0_1.index t (2 : Fin 4) ≤ 1 :=
  (by decide +kernel : ∀ t : Fin grid0.N, _)

/-- Every (batch element, row tile) pair is some grid point's output block. -/
theorem idx_onto : ∀ (q0 : Fin 4) (q2 : Fin 2), ∃ t : Fin cfg0.N, win0_1.index t = ![q0.val, 0, q2.val, 0] :=
  (by decide +kernel : ∀ (q0 : Fin 4) (q2 : Fin 2), ∃ t : Fin grid0.N, win0_1.index t = ![q0.val, 0, q2.val, 0])

/-- WHAT POINT `t` WRITES BACK is block `t` of the channel minimum of the argument array. -/
theorem flushed_eq (c : Dev nD) (t : Fin cfg0.N) :
    (dats m 0 c).flushed 1 t = ((cfg0.win 1).blk t).view.read (Elt Ideal) (chanMin (V m c main_arg0)) := by
  rw [flushed1_A]
  obtain ⟨e0, e1, e2, e3, e4, e5, e6, e7, e8⟩ := idx_facts t
  refine funext fun (j : S1x1x256x512.Idx) => ?_
  show out0_A_1 (F := Ideal) c (grid0.coords t) (ms0_0 t) (hs0_0 t) (ms0_1 t) (hs0_1 t) (iblk m c 0 t) j
    = chanMin (V m c main_arg0) (((cfg0.win 1).blk t).view.emb j)
  refine (Block.block_min_at c (grid0.coords t) (ms0_0 t) (hs0_0 t) (ms0_1 t) (hs0_1 t) (iblk m c 0 t) j).trans ?_
  unfold chanMin
  refine congrArg (fun f : Fin 32 → EReal => Finset.univ.fold min (⊤ : EReal) f) (funext fun ch => ?_)
  show V m c main_arg0 (((cfg0.win 0).blk t).view.emb (ix5 (0 : Fin 1) (0 : Fin 1) ch (j 2) (j 3))) = _
  refine congrArg (V m c main_arg0) (funext fun a => Fin.ext ?_)
  have hj0 : (j 0).val < 1 := (j 0).isLt
  have hj2 : (j 2).val < 256 := (j 2).isLt
  have hj3 : (j 3).val < 512 := (j 3).isLt
  match a with
  | ⟨0, _⟩ =>
    show win0_0.index t (0 : Fin 5) * 1 + 1 * 0 = win0_1.index t (0 : Fin 4) * 1 + 1 * (j 0).val
    omega
  | ⟨1, _⟩ =>
    show win0_0.index t (1 : Fin 5) * 1 + 1 * 0 = 7
    omega
  | ⟨2, _⟩ =>
    show win0_0.index t (2 : Fin 5) * 32 + 1 * ch.val = ch.val
    omega
  | ⟨3, _⟩ =>
    show win0_0.index t (3 : Fin 5) * 256 + 1 * (j 2).val = win0_1.index t (2 : Fin 4) * 256 + 1 * (j 2).val
    omega
  | ⟨4, _⟩ =>
    show win0_0.index t (4 : Fin 5) * 512 + 1 * (j 3).val = win0_1.index t (3 : Fin 4) * 512 + 1 * (j 3).val
    omega

/-- An index of the result array is in point `t`'s block iff each coordinate is in the block's range on its axis. -/
theorem mem_blk (t : Fin cfg0.N) (i : S4x1x512x512.Idx) :
    i ∈ ((cfg0.win 1).blk t).view.set ↔ ∀ a : Fin 4, win0_1.index t a * S1x1x256x512.size a ≤ (i a).val
      ∧ (i a).val < win0_1.index t a * S1x1x256x512.size a + S1x1x256x512.size a := by
  show i ∈ ((View.whole main_v0).slice (win0_1.rect t)).set ↔ _
  rw [View.set_slice_whole, Rect.mem_set_unit]
  exact Iff.rfl

/-- The blocks cover the result array: index `i` lies in the block of the point with batch element `i 0` and row
    tile `i 2 / 256`. -/
theorem cover (i : S4x1x512x512.Idx) :
    ∃ t : Fin cfg0.N, (cfg0.win 1).flush t = true ∧ i ∈ ((cfg0.win 1).blk t).view.set := by
  have hi0 : (i 0).val < 4 := (i 0).isLt
  have hi1 : (i 1).val < 1 := (i 1).isLt
  have hi2 : (i 2).val < 512 := (i 2).isLt
  have hi3 : (i 3).val < 512 := (i 3).isLt
  obtain ⟨t, ht⟩ := idx_onto ⟨(i 0).val, hi0⟩ ⟨(i 2).val / 256, by omega⟩
  have q0 : win0_1.index t (0 : Fin 4) = (i 0).val := congrFun ht 0
  have q1 : win0_1.index t (1 : Fin 4) = 0 := congrFun ht 1
  have q2 : win0_1.index t (2 : Fin 4) = (i 2).val / 256 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 1 ≤ (i 1).val ∧ (i 1).val < win0_1.index t (1 : Fin 4) * 1 + 1
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 512 ≤ (i 3).val ∧ (i 3).val < win0_1.index t (3 : Fin 4) * 512 + 512
    omega

/-- THE RESULT ARRAY after the run is the channel minimum of the argument array as the region found it. -/
theorem final (c : Dev nD) : (dats m 0 c).arrAt 1 cfg0.N = chanMin (V m c main_arg0) :=
  (dats m 0 c).arrAt_eq_of_cover 1 (chanMin (V m c main_arg0)) (fun t _ => flushed_eq m c t) cover

/-- The kernel's run, read: every weakly fair execution ends with the result array at the channel minimum of the
    argument's launch contents and the argument unchanged. -/
theorem run : θ_run defs (onTc (τ := τ) (main (F := Ideal))) ⟨m, fun _ => 0, ρ⟩ fun r => ∀ c : Dev nD,
      r.2.mem ((c : Thread nD τ).loc main_v0) = chanMin (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.MinChannel.KernelArray

end
-- ==== Proof.RefMin.lean ====
/-
  The reference computes the channel minimum.

  The reference slices time step 7 out of the argument ([4,8,32,512,512] → [4,1,32,512,512]), drops the unit axis
  ([4,32,512,512]), reduces with `min` from the word of `+∞` over axis 1 — the 32 channels — ([4,512,512]), and puts
  a unit axis back ([4,1,512,512]). Read at a result index `(b, 0, h, w)`: the last step reads `(b, h, w)`; the
  reduction there is the fold of `min` from `+∞` over the channels `c` of the reshaped slice at `(b, c, h, w)`
  (a one-axis reduce with a commutative, associative body is a fold over that axis's coordinates); the reshape keeps
  the row-major position, so `(b, c, h, w)` reads `(b, 0, c, h, w)` of the slice; and the slice reads the argument
  at `(b, 7, c, h, w)`. That is `chanMin`. The word `0x7F800000` denotes `+∞`, the top element, at the ideal
  instance.
-/
import proofs.«108669_j32667521253559_2_alg».proof.Proof.Gen.ReferenceIdeal.Read
import proofs.«108669_j32667521253559_2_alg».proof.Proof.Spec
import Idealize.ShloMosaic.PureOps.Reduce
import Idealize.ShloMosaic.PureOps.Ideal.Laws

noncomputable section

open Idealize.ShloMosaic Idealize.ShloMosaic.TcCoe Idealize.SL.Sem Idealize.ShloMosaic.ValueIdx

namespace Cert.MinChannel.Ref

open Cert.ReferenceIdeal Cert.ReferenceIdeal.Gen Cert.ReferenceIdeal.Read

/-- The f32 word `0x7F800000` is `+∞`, the top element of the extended reals. -/
theorem inf_word : Ideal.ofBits .f32 0x7F800000#32 = (⊤ : EReal) := by simp [Ideal.ofBits, Ideal.ieee]

/-- Reducing axis 1 of [4,32,512,512] leaves [4,512,512]. -/
theorem reduces : S4x32x512x512.Reduces [1] S4x512x512 := by decide

/-- The reduced index `(b, h, w)` with channel `ch` put back on axis 1 is `(b, ch, h, w)`. -/
theorem lift_eq (j : S4x512x512.Idx) (ch : Fin (S4x32x512x512.size 1)) :
    reduces.lift j ch = ix4 (j 0) (⟨ch.val, ch.isLt⟩ : Fin 32) (j 1) (j 2) := by
  funext c; apply Fin.ext
  fin_cases c <;> rfl

/-- THE REFERENCE'S RESULT is the channel minimum of its argument array. -/
theorem ref_eq (x0 : (⟨S4x8x32x512x512, .f32⟩ : BufTy).Contents (Elt Ideal)) :
    val_main_v3 (F := Ideal) x0 = chanMin x0 := by
  funext i
  rw [val_main_v3_apply]
  unfold val_main_v2
  refine (Host.reduce_eq_fold_single (FloatOps.minimumf (F := Ideal) (φ := .f32)) (val_main_v1 (F := Ideal) x0)
    (val_main_cst (F := Ideal)) reducesTo_S4x32x512x512_S4x512x512_d1 reduces h_S_ (idx_main_v3 i)).trans ?_
  unfold chanMin
  show Finset.univ.fold min (Ideal.ofBits .f32 0x7F800000#32)
      (fun ch : Fin 32 => val_main_v1 (F := Ideal) x0 (reduces.lift (idx_main_v3 i) ch)) = _
  rw [inf_word]
  refine congrArg (fun f : Fin 32 → EReal => Finset.univ.fold min (⊤ : EReal) f) (funext fun ch => ?_)
  refine (congrArg (val_main_v1 (F := Ideal) x0) (lift_eq (idx_main_v3 i) ch)).trans ?_
  refine (val_main_v1_apply (F := Ideal) x0 _).trans ?_
  refine (val_main_v0_apply (F := Ideal) x0 _).trans ?_
  refine congrArg x0 (funext fun a => Fin.ext ?_)
  have hi0 : (i 0).val < 4 := (i 0).isLt
  have hi2 : (i 2).val < 512 := (i 2).isLt
  have hi3 : (i 3).val < 512 := (i 3).isLt
  have hch : ch.val < 32 := ch.isLt
  match a with
  | ⟨0, _⟩ =>
    show ((((i 0).val * 32 + ch.val) * 512 + (i 2).val) * 512 + (i 3).val) / 8388608 = (i 0).val
    omega
  | ⟨1, _⟩ =>
    show 7 + 0 = 7
    rfl
  | ⟨2, _⟩ =>
    show ((((i 0).val * 32 + ch.val) * 512 + (i 2).val) * 512 + (i 3).val) / 262144 % 32 = ch.val
    omega
  | ⟨3, _⟩ =>
    show ((((i 0).val * 32 + ch.val) * 512 + (i 2).val) * 512 + (i 3).val) / 512 % 512 = (i 2).val
    omega
  | ⟨4, _⟩ =>
    show ((((i 0).val * 32 + ch.val) * 512 + (i 2).val) * 512 + (i 3).val) % 512 = (i 3).val
    omega

end Cert.MinChannel.Ref

end
-- ==== Proof.lean ====
/- The channel minimum of the last time step: the kernel against its reference.

   The input `x` has shape [4, 8, 32, 512, 512] (batch, time, channel, row, column); both programs return the array of
   shape [4, 1, 512, 512] whose entry `(b, 0, h, w)` is the minimum over the 32 channels `c` of `x (b, 7, c, h, w)`.

   The kernel runs over a 4 × 2 grid of (batch element, 256-row tile). At a point it holds all 32 channels of its tile
   of the last time step and takes their minimum one channel at a time, left to right, starting from channel 0
   (Proof/BlockMin.lean: the carried plane before trip `k` is the running minimum of channels `0 … k`, by induction on
   the trip). The 8 output blocks tile the result, so the result array is the channel minimum everywhere
   (Proof/KernelArray.lean). The reference slices out the last time step, drops the unit axis, folds `min` from `+∞`
   over the channel axis and puts the unit axis back (Proof/RefMin.lean). A left-to-right running minimum and a fold of
   `min` from the top element are the same element of a linear order — both are the greatest lower bound of the 32
   values (Proof/LibRunMin.lean) — so both programs end with the one function `chanMin` of the argument
   (Proof/Spec.lean). Nothing here needs the inputs to be finite: `min` is total on the extended reals, and no
   arithmetic is done on the values.

   The three frames: each kernel program's is its generated frame certificate; the reference's is its generated run
   with the result dropped. The idealization rewrote no operation, so there is nothing to preserve. -/
import proofs.«108669_j32667521253559_2_alg».proof.Defs
import proofs.«108669_j32667521253559_2_alg».proof.Proof.Gen.Kernel
import proofs.«108669_j32667521253559_2_alg».proof.Proof.Gen.Kernel.Skeleton
import proofs.«108669_j32667521253559_2_alg».proof.Proof.Gen.Kernel.Loops
import proofs.«108669_j32667521253559_2_alg».proof.Proof.Gen.Kernel.Launch
import proofs.«108669_j32667521253559_2_alg».proof.Proof.Gen.Kernel.Points
import proofs.«108669_j32667521253559_2_alg».proof.Proof.Gen.Kernel.Frame
import proofs.«108669_j32667521253559_2_alg».proof.Proof.Gen.KernelIdeal
import proofs.«108669_j32667521253559_2_alg».proof.Proof.Gen.KernelIdeal.Skeleton
import proofs.«108669_j32667521253559_2_alg».proof.Proof.Gen.KernelIdeal.Loops
import proofs.«108669_j32667521253559_2_alg».proof.Proof.Gen.KernelIdeal.Launch
import proofs.«108669_j32667521253559_2_alg».proof.Proof.Gen.KernelIdeal.Points
import proofs.«108669_j32667521253559_2_alg».proof.Proof.Gen.KernelIdeal.Frame
import proofs.«108669_j32667521253559_2_alg».proof.Proof.Gen.ReferenceIdeal
import proofs.«108669_j32667521253559_2_alg».proof.Proof.Gen.KernelIdeal.Value
import proofs.«108669_j32667521253559_2_alg».proof.Proof.Gen.ReferenceIdeal.Run
import proofs.«108669_j32667521253559_2_alg».proof.Proof.Gen.ReferenceIdeal.Read
import proofs.«108669_j32667521253559_2_alg».proof.Proof.KernelArray
import proofs.«108669_j32667521253559_2_alg».proof.Proof.RefMin
import proofs.«108669_j32667521253559_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its argument unchanged: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument both programs end with the result at the channel minimum of that
    argument: the kernel by its blocks (`KernelArray.run`), the reference by its stages (`Ref.ref_eq`). -/
theorem algebraic : Cert.algebraic_KernelIdeal_ReferenceIdeal := by
  intro m ρ m' ρ' _ hagree
  refine ⟨fun c => Cert.MinChannel.chanMin (m ((c : Thread Cert.KernelIdeal.nD Cert.KernelIdeal.τ).loc Cert.KernelIdeal.main_arg0)),
    Cert.MinChannel.KernelArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.MinChannel.Ref.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
